-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn_part1 {F : FTy → Type} [FloatOps F] (main_v13 : IVec S_ 1) (main_v16 : IVec S16777216 1) : IVec S_ 1 :=
  let main_c_5 : IVec S_ 1 := constantI S_ 1 1#1
  let main_v17 : IVec S_ 1 := (fun x v => Host.reduce IntOp.andi x v reducesTo_S16777216_S_d0 h_S_) main_v16 main_c_5
  let main_v18 : IVec S_ 1 := andi main_v13 main_v17
  main_v18

def fn {F : FTy → Type} [FloatOps F] (main_arg0 : FVec F S16777216 .f32) (main_arg1 : FVec F S16777216 .f32) (main_arg2 : FVec F S16777216 .f32) (main_arg3 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S16777216 .f32 := Host.absf main_arg2
  let main_cst_2 : FVec F S_ .f32 := constant S_ .f32 0x7F800000#32
  let main_v10 : FVec F S16777216 .f32 := broadcastInDim S16777216 ![] bcast_S_S16777216 main_cst_2
  let main_v11 : IVec S16777216 1 := cmpf .olt main_v9 main_v10
  let main_c_3 : IVec S_ 1 := constantI S_ 1 1#1
  let main_v12 : IVec S_ 1 := (fun x v => Host.reduce IntOp.andi x v reducesTo_S16777216_S_d0 h_S_) main_v11 main_c_3
  let main_v13 : IVec S_ 1 := andi main_v8 main_v12
  let main_v14 : FVec F S16777216 .f32 := Host.absf main_arg3
  let main_cst_4 : FVec F S_ .f32 := constant S_ .f32 0x7F800000#32
  let main_v15 : FVec F S16777216 .f32 := broadcastInDim S16777216 ![] bcast_S_S16777216 main_cst_4
  let main_v16 : IVec S16777216 1 := cmpf .olt main_v14 main_v15
  fn_part1 (F := F) main_v13 main_v16
-- ==== Kernel.lean ====
abbrev S16777216 : Shape := ⟨1, ![16777216]⟩
abbrev S131072x128 : Shape := ⟨2, ![131072, 128]⟩
abbrev S1x1 : Shape := ⟨2, ![1, 1]⟩
abbrev S4096x128 : Shape := ⟨2, ![4096, 128]⟩
abbrev S128 : Shape := ⟨1, ![128]⟩
abbrev S1x128 : Shape := ⟨2, ![1, 128]⟩
abbrev S1 : Shape := ⟨1, ![1]⟩
abbrev S_ : Shape := ⟨0, ![]⟩

abbrev nBuf : Space → Nat
  | .hbm => 12
  | .vmem => 9
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S16777216, .f32⟩
  | .hbm, ⟨4, _⟩ => ⟨S131072x128, .f32⟩
  | .hbm, ⟨5, _⟩ => ⟨S131072x128, .f32⟩
  | .hbm, ⟨6, _⟩ => ⟨S131072x128, .f32⟩
  | .hbm, ⟨7, _⟩ => ⟨S131072x128, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S1x1, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S16777216_S131072x128 : S16777216.ShapeCasts S131072x128
  inb_S1x1_S1x1_0_0 : ∀ a, (![0, 0] : Fin 2 → Nat) a + S1x1.size a ≤ S1x1.size a
  h_S1x1 : 0 < S1x1.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S128 : S4096x128.Reduces [0] S128
  shapeCasts_S128_S1x128 : S128.ShapeCasts S1x128
  reduces_S1x128_S1 : S1x128.Reduces [1] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S131072x128.size a
  hwx0_3 : ∀ i : grid0.Coords, EltTy.bits .f32 = 32 ∨ (Rect.block (s := S131072x128) S4096x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S16777216, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16777216, .f32⟩
  | .hbm, ⟨12, _⟩ => ⟨S16777216, .f32⟩
  | .hbm, ⟨13, _⟩ => ⟨S_, .f32⟩
  | .hbm, ⟨14, _⟩ => ⟨S_, .f32⟩
  | .hbm, ⟨15, _⟩ => ⟨S16777216, .f32⟩
  | .hbm, ⟨16, _⟩ => ⟨S16777216, .f32⟩
  | .hbm, ⟨17, _⟩ => ⟨S16777216, .f32⟩
  | .hbm, ⟨18, _⟩ => ⟨S16777216, .f32⟩
  | .hbm, ⟨19, _⟩ => ⟨S16777216, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  reducesTo_S16777216_S_d0 : S16777216.ReducesTo [0] S_
  h_S_ : 0 < S_.numel

variable [Facts₀]

class Facts : Prop extends Facts₀ where

variable [Facts]
-- ==== Proof.Spec.lean ====
/-
  The two closed forms of the KL divergence between diagonal Gaussians, as extended reals (that they agree on finite data is
  proved in the module after this one).

  With mean vectors a0, a2 and log-variance vectors a1, a3 of length n = 2^24, one element contributes
      term = (1/2·a1 − 1/2·a3 + 1/2·exp(a3 − a1)) + 1/2·((a0 − a2)²·exp(0 − a1)).
  The blocked form sums `term` over 32 blocks of 4096 rows by 128 lanes (the element of block t, row r, lane l sits
  at flat position (4096·t + r)·128 + l), lanes outermost, and subtracts n/2 = 2^23 at the end.
  The split form is 1/2·(Σ a1 − Σ a3) + 1/2·((Σ exp(a3 − a1) + Σ (a0 − a2)²·exp(−a1)) − n).
-/
import Idealize.ShloMosaic.PureOps.Ideal
import Idealize.ShloMosaic.PureOps.Ideal.Laws
import Idealize.ShloMosaic.Lib.ValueIdx

noncomputable section

namespace Cert.KlSpec

open Idealize.ShloMosaic Idealize.ShloMosaic.ValueIdx

/-- A vector of 2^24 extended reals, indexed as a rank-1 array. -/
abbrev Arr : Type := (⟨1, ![16777216]⟩ : Shape).Idx → EReal

theorem flat_lt (t : ℕ) (r : Fin 4096) (l : Fin 128) : ((t % 32) * 4096 + r.val) * 128 + l.val < 16777216 := by
  have := Nat.mod_lt t (by decide : 0 < 32); have := r.isLt; have := l.isLt; omega

/-- The flat position of row `r`, lane `l` of block `t` (blocks are counted modulo 32). -/
def flat (t : ℕ) (r : Fin 4096) (l : Fin 128) : (⟨1, ![16777216]⟩ : Shape).Idx :=
  ix1 ⟨((t % 32) * 4096 + r.val) * 128 + l.val, flat_lt t r l⟩

/-- The constants 1/2 and 0 as the f32 words denote them. -/
def half : EReal := Ideal.ofBits .f32 0x3F000000#32
def zero : EReal := Ideal.ofBits .f32 0x00000000#32

/-- One element's contribution. -/
def term (a0 a1 a2 a3 : EReal) : EReal :=
  ((half * a1 - half * a3) + half * Ideal.exp (a3 - a1)) + half * (((a0 - a2) * (a0 - a2)) * Ideal.exp (zero - a1))

/-- The sum of the contributions of block `t`: lanes outermost, rows inside. -/
def blockSum (A0 A1 A2 A3 : Arr) (t : ℕ) : EReal :=
  ∑ l : Fin 128, ∑ r : Fin 4096, term (A0 (flat t r l)) (A1 (flat t r l)) (A2 (flat t r l)) (A3 (flat t r l))

/-- The blocked form: the 32 block sums added onto zero, then n/2 subtracted. -/
def blocked (A0 A1 A2 A3 : Arr) : EReal :=
  (zero + ∑ t ∈ Finset.range 32, blockSum A0 A1 A2 A3 t) - Ideal.ofBits .f32 0x4B000000#32

/-- The split form: four whole-vector sums combined. -/
def split (A0 A1 A2 A3 : Arr) : EReal :=
  half * ((zero + ∑ j, A1 j) - (zero + ∑ j, A3 j))
    + half * (((zero + ∑ j, Ideal.exp (A3 j - A1 j)) + (zero + ∑ j, ((A0 j - A2 j) * (A0 j - A2 j)) * Ideal.exp (-(A1 j))))
        - Ideal.ofBits .f32 0x4B800000#32)

end Cert.KlSpec

end
-- ==== Proof.RefValue.lean ====
/-
  The reference program's result, read one operation at a time, is the split form of the KL divergence.
-/
import proofs.«141149_j8744553415074_2_alg».proof.Proof.Gen.ReferenceIdeal.Read
import proofs.«141149_j8744553415074_2_alg».proof.Proof.Spec

noncomputable section

namespace Cert.ReferenceIdeal.RefValue

open Cert.ReferenceIdeal Cert.ReferenceIdeal.Gen Idealize.ShloMosaic

/-- The reference's last stage at its one index is the split form of the four argument vectors. -/
theorem val_eq_split (x0 x1 x2 x3 : (⟨S16777216, .f32⟩ : BufTy).Contents (Elt Ideal)) (i : S_.Idx) :
    Cert.ReferenceIdeal.Read.val_main_v16 (F := Ideal) x0 x1 x2 x3 i = Cert.KlSpec.split x0 x1 x2 x3 := by
  -- Read the last stage at its index one operation at a time, outermost first: the two products, the differences,
  -- and the four whole-vector sums (each is its initial value plus the sum over every index of its operand).
  rw [Read.val_main_v16_apply, Read.val_main_v3_apply, Read.val_main_cst_1_apply, Read.val_main_v2_apply,
    Read.val_main_v0_apply, Read.val_main_v1_apply, Read.val_main_v15_apply, Read.val_main_cst_5_apply,
    Read.val_main_v14_apply, Read.val_main_cst_4_apply, Read.val_main_v13_apply, Read.val_main_v6_apply,
    Read.val_main_v12_apply, Read.val_main_cst_apply, Read.val_main_cst_0_apply, Read.val_main_cst_2_apply,
    Read.val_main_cst_3_apply]
  -- Under the sums: the summands exp (x3 j − x1 j) and (x0 j − x2 j)² · exp (−x1 j).
  simp only [Read.val_main_v5_apply, Read.val_main_v4_apply, Read.val_main_v11_apply, Read.val_main_v8_apply,
    Read.val_main_v7_apply, Read.val_main_v10_apply, Read.val_main_v9_apply]
  -- On extended reals the float operations are +, −, ·, exp and negation; the constant words stay as they are.
  simp only [Ideal.addf_def, Ideal.subf_def, Ideal.mulf_def, Ideal.hostUnary_exp_def, Ideal.hostNegf_def,
    Ideal.negf_def, Ideal.ofBits_def]
  unfold Cert.KlSpec.split Cert.KlSpec.half Cert.KlSpec.zero
  rfl

end Cert.ReferenceIdeal.RefValue

end
-- ==== Proof.SpecLaw.lean ====
/-
  On finite data the blocked form and the split form of the KL divergence agree.
-/
import proofs.«141149_j8744553415074_2_alg».proof.Proof.Spec

noncomputable section

namespace Cert.KlSpec

open Idealize.ShloMosaic Idealize.ShloMosaic.ValueIdx

/-! ## The constants -/

/-- The word 0x3F000000 denotes 1/2. -/
theorem half_eq : half = (((1 : ℝ) / 2 : ℝ) : EReal) := by
  unfold half
  simp [Ideal.ofBits, Ideal.ieee, -EReal.coe_mul]; norm_num

/-- The word 0x00000000 denotes 0. -/
theorem zero_eq : zero = ((0 : ℝ) : EReal) := by
  unfold zero
  rw [Ideal.ofBits_zero_f32]; rfl

/-- The word 0x4B000000 denotes 2^23. -/
theorem two23_eq : Ideal.ofBits .f32 0x4B000000#32 = ((8388608 : ℝ) : EReal) := by
  simp [Ideal.ofBits, Ideal.ieee, -EReal.coe_mul]

/-- The word 0x4B800000 denotes 2^24. -/
theorem two24_eq : Ideal.ofBits .f32 0x4B800000#32 = ((16777216 : ℝ) : EReal) := by
  simp [Ideal.ofBits, Ideal.ieee, -EReal.coe_mul]; norm_num

/-! ## Coercion of finite sums -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## One element's contribution over the reals -/

/-- One element's contribution, as a real. -/
def rterm (a0 a1 a2 a3 : ℝ) : ℝ :=
  ((1 / 2 * a1 - 1 / 2 * a3) + 1 / 2 * Real.exp (a3 - a1)) + 1 / 2 * (((a0 - a2) * (a0 - a2)) * Real.exp (0 - a1))

/-- On reals the contribution is the coercion of the real contribution. -/
theorem term_coe (a0 a1 a2 a3 : ℝ) :
    term (a0 : EReal) (a1 : EReal) (a2 : EReal) (a3 : EReal) = ((rterm a0 a1 a2 a3 : ℝ) : EReal) := by
  unfold term rterm
  rw [half_eq, zero_eq]
  simp only [← EReal.coe_sub, ← EReal.coe_add, ← EReal.coe_mul, Ideal.exp_coe]

/-! ## The identity over the reals -/

/-- Over any finite index type: the sum of the contributions less n/2 is the split form. -/
theorem real_identity {ι : Type*} [Fintype ι] (a0 a1 a2 a3 : ι → ℝ) (n m : ℝ) (hnm : n = 2 * m) :
    (0 + ∑ j, rterm (a0 j) (a1 j) (a2 j) (a3 j)) - m
      = 1 / 2 * ((0 + ∑ j, a1 j) - (0 + ∑ j, a3 j))
        + 1 / 2 * (((0 + ∑ j, Real.exp (a3 j - a1 j))
            + (0 + ∑ j, ((a0 j - a2 j) * (a0 j - a2 j)) * Real.exp (-(a1 j)))) - n) := by
  subst hnm
  unfold rterm
  simp only [Finset.sum_add_distrib, Finset.sum_sub_distrib, ← Finset.mul_sum, zero_sub]
  ring

/-! ## Re-indexing the blocks, lanes and rows as the 2^24 flat positions -/

/-- The coordinate of a flat index is below 2^24. -/
theorem idx_lt (j : (⟨1, ![16777216]⟩ : Shape).Idx) : (j 0).val < 16777216 := (j 0).isLt

/-- Block, lane and row against the flat position: (t, l, r) ↦ (4096·t + r)·128 + l is a bijection. -/
def flatEquiv : (Fin 32 × Fin 128 × Fin 4096) ≃ (⟨1, ![16777216]⟩ : Shape).Idx where
  toFun p := flat p.1.val p.2.2 p.2.1
  invFun j :=
    (⟨(j 0).val / 524288, by have := idx_lt j; omega⟩,
     ⟨(j 0).val % 128, by omega⟩,
     ⟨((j 0).val / 128) % 4096, by omega⟩)
  left_inv p := by
    obtain ⟨t, l, r⟩ := p
    have ht := t.isLt; have hl := l.isLt; have hr := r.isLt
    refine Prod.ext (Fin.ext ?_) (Prod.ext (Fin.ext ?_) (Fin.ext ?_))
    · show (((t.val % 32) * 4096 + r.val) * 128 + l.val) / 524288 = t.val
      omega
    · show (((t.val % 32) * 4096 + r.val) * 128 + l.val) % 128 = l.val
      omega
    · show ((((t.val % 32) * 4096 + r.val) * 128 + l.val) / 128) % 4096 = r.val
      omega
  right_inv j := by
    have hj := idx_lt j
    rw [eq_ix1 j]
    show ix1 _ = ix1 _
    congr 1
    apply Fin.ext
    show (((j 0).val / 524288 % 32) * 4096 + ((j 0).val / 128) % 4096) * 128 + (j 0).val % 128 = (j 0).val
    omega

/-- The sum over blocks, then lanes, then rows is the sum over all flat positions. -/
theorem sum_blocks {M : Type*} [AddCommMonoid M] (f : (⟨1, ![16777216]⟩ : Shape).Idx → M) :
    ∑ t ∈ Finset.range 32, ∑ l : Fin 128, ∑ r : Fin 4096, f (flat t r l) = ∑ j, f j := by
  rw [Finset.sum_range (fun t => ∑ l : Fin 128, ∑ r : Fin 4096, f (flat t r l))]
  rw [← Equiv.sum_comp flatEquiv f, Fintype.sum_prod_type]
  refine Finset.sum_congr rfl fun t _ => ?_
  rw [Fintype.sum_prod_type]
  rfl

/-! ## The two forms agree -/

/-- On finite data the two forms agree. -/
theorem blocked_eq_split (A0 A1 A2 A3 : Arr)
    (h0 : ∀ j, ∃ r : ℝ, A0 j = (r : EReal)) (h1 : ∀ j, ∃ r : ℝ, A1 j = (r : EReal))
    (h2 : ∀ j, ∃ r : ℝ, A2 j = (r : EReal)) (h3 : ∀ j, ∃ r : ℝ, A3 j = (r : EReal)) :
    blocked A0 A1 A2 A3 = split A0 A1 A2 A3 := by
  -- the real vectors behind the data
  choose a0 ha0 using h0
  choose a1 ha1 using h1
  choose a2 ha2 using h2
  choose a3 ha3 using h3
  -- the blocked form is the coercion of a real: one sum over all positions, less 2^23
  have hb : blocked A0 A1 A2 A3
      = (((0 + ∑ j, rterm (a0 j) (a1 j) (a2 j) (a3 j)) - 8388608 : ℝ) : EReal) := by
    unfold blocked blockSum
    rw [sum_blocks (fun j => term (A0 j) (A1 j) (A2 j) (A3 j))]
    simp only [ha0, ha1, ha2, ha3, term_coe]
    rw [← coe_finset_sum, zero_eq, two23_eq, ← EReal.coe_add, ← EReal.coe_sub]
  -- the split form is the coercion of a real as well
  have hs : split A0 A1 A2 A3
      = ((1 / 2 * ((0 + ∑ j, a1 j) - (0 + ∑ j, a3 j))
          + 1 / 2 * (((0 + ∑ j, Real.exp (a3 j - a1 j))
              + (0 + ∑ j, ((a0 j - a2 j) * (a0 j - a2 j)) * Real.exp (-(a1 j)))) - 16777216) : ℝ) : EReal) := by
    unfold split
    simp only [ha0, ha1, ha2, ha3, half_eq, zero_eq, two24_eq, ← EReal.coe_sub, ← EReal.coe_neg, Ideal.exp_coe,
      ← EReal.coe_mul, ← coe_finset_sum, ← EReal.coe_add]
  rw [hb, hs, real_identity a0 a1 a2 a3 16777216 8388608 (by norm_num)]

end Cert.KlSpec

end
-- ==== Proof.Finite.lean ====
/-
  From the precondition "every input is finite" to: every entry of the four input vectors is a real number.
-/
import proofs.«141149_j8744553415074_2_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Finite

open Idealize.ShloMosaic

/-- A shape of rank 0 has exactly one index. -/
instance : Subsingleton Cert.Pre_finite_inputs.S_.Idx := ⟨fun a b => funext fun d => d.elim0⟩

/-- The f32 word 0x7F800000 (sign 0, exponent all ones, fraction 0) is +∞. -/
theorem top_f32 : Ideal.ofBits .f32 0x7F800000#32 = (⊤ : EReal) := by
  simp [Ideal.ofBits, Ideal.ieee]

/-- An extended real whose absolute value max a (−a) is strictly below +∞ is neither infinity
    (at a = +∞ the maximum is +∞; at a = −∞ its negation is +∞), hence it is a real. -/
theorem real_of_abs_lt_top (a : EReal) (h : Ideal.cmp .olt (max a (-a)) ⊤ = 1#1) :
    ∃ r : ℝ, a = (r : EReal) := by
  induction a using EReal.rec with
  | bot => simp [Ideal.cmp] at h
  | coe r => exact ⟨r, rfl⟩
  | top => simp [Ideal.cmp] at h

/-- If the conjunction over all entries of "|y| < +∞" is 1, then every entry of y is a real:
    a reduction by "and" that came out 1 met a 1 at every entry, and the entry's comparison
    is max (y j) (−(y j)) < +∞. -/
theorem real_of_all [Cert.Pre_finite_inputs.Facts]
    (y : FVec Ideal Cert.Pre_finite_inputs.S16777216 .f32) (init : IVec Cert.Pre_finite_inputs.S_ 1)
    (e : Host.reduce IntOp.andi
        (cmpf .olt (Host.absf y)
          (broadcastInDim Cert.Pre_finite_inputs.S16777216 ![]
            Cert.Pre_finite_inputs.Facts.bcast_S_S16777216
            (constant Cert.Pre_finite_inputs.S_ .f32 0x7F800000#32)))
        init Cert.Pre_finite_inputs.Facts.reducesTo_S16777216_S_d0
        Cert.Pre_finite_inputs.Facts.h_S_ ValueIdx.ix0 = 1#1) :
    ∀ j, ∃ r : ℝ, y j = (r : EReal) := by
  intro j
  have hj := Host.reduce_andi_all _ _ _ _ _ e j
  apply real_of_abs_lt_top
  rw [← top_f32]
  exact hj

/-- If the finiteness predicate is all ones on four vectors of extended reals, every entry of each is a real. -/
theorem real_of_pre [Cert.Pre_finite_inputs.Facts]
    (x0 x1 x2 x3 : FVec Ideal Cert.Pre_finite_inputs.S16777216 .f32)
    (h : Cert.Pre_finite_inputs.fn (F := Ideal) x0 x1 x2 x3 = fun _ => 1#1) :
    (∀ j, ∃ r : ℝ, x0 j = (r : EReal)) ∧ (∀ j, ∃ r : ℝ, x1 j = (r : EReal))
      ∧ (∀ j, ∃ r : ℝ, x2 j = (r : EReal)) ∧ (∀ j, ∃ r : ℝ, x3 j = (r : EReal)) := by
  -- The predicate's value at its one index is ((p0 ∧ p1) ∧ p2) ∧ p3, each p the conjunction over one vector.
  have h0 := congrFun h ValueIdx.ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all x0 _ h0', real_of_all x1 _ h1, real_of_all x2 _ h2, real_of_all x3 _ h3⟩

end Cert.Finite

end
-- ==== Proof.Pieces.lean ====
/-
  What one run of the kernel body leaves in the one-cell accumulator, as a value: the body's last store is the
  only one that survives, and its payload is "the cell as loaded, plus the sum of the block's contributions".
  At the first grid point the cell loaded is the zero just stored; at every later point it is what the point
  before left.
-/
import proofs.«141149_j8744553415074_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- At a point after the first the body leaves, in the accumulator cell holding `xo`, the cell plus the block's sum:
    its one covering store's payload, whose loads read the whole buffers. -/
theorem out_B (c : Dev nD) (i : grid0.Coords) (a1 : Memref sig .tc .vmem S4096x128 .f32) (h1 : a1.IsWhole)
    (a2 : Memref sig .tc .vmem S4096x128 .f32) (h2 : a2.IsWhole) (a3 : Memref sig .tc .vmem S4096x128 .f32) (h3 : a3.IsWhole)
    (a4 : Memref sig .tc .vmem S4096x128 .f32) (h4 : a4.IsWhole) (a5 : Memref sig .tc .vmem S1x1 .f32) (h5 : a5.IsWhole)
    (hc : ¬cond0_0 i) (x0 x1 x2 x3 : Vec F S4096x128 .f32) (xo : Vec F S1x1 .f32) :
    out0_B_4 c i a1 h1 a2 h2 a3 h3 a4 h4 a5 h5 hc x0 x1 x2 x3 xo = k0_pay2 x0 x1 x2 x3 xo := by
  unfold out0_B_4
  rw [View.read_writes_eq_canon _ _ _ (cover0_B_4 c i a1 h1 a2 h2 a3 h3 a4 h4 a5 h5 hc x0 x1 x2 x3 xo)]
  unfold kernelRun0_B
  dsimp only
  sl_unfold_words
  rw [View.canon_unit_zero hz]
  simp only [View.readAt_eq_ld, h1.read_unread, h2.read_unread, h3.read_unread, h4.read_unread, h5.read_unread,
    View.ld_unit_zero (S := S4096x128) hz, View.ld_unit_zero (S := S1x1) hz]

/-- At the first point the body stores the zero cell, reads it back, and leaves zero plus the block's sum. -/
theorem out_A (c : Dev nD) (i : grid0.Coords) (a1 : Memref sig .tc .vmem S4096x128 .f32) (h1 : a1.IsWhole)
    (a2 : Memref sig .tc .vmem S4096x128 .f32) (h2 : a2.IsWhole) (a3 : Memref sig .tc .vmem S4096x128 .f32) (h3 : a3.IsWhole)
    (a4 : Memref sig .tc .vmem S4096x128 .f32) (h4 : a4.IsWhole) (a5 : Memref sig .tc .vmem S1x1 .f32) (h5 : a5.IsWhole)
    (hc : cond0_0 i) (x0 x1 x2 x3 : Vec F S4096x128 .f32) :
    out0_A_4 c i a1 h1 a2 h2 a3 h3 a4 h4 a5 h5 hc x0 x1 x2 x3 = k0_pay2 x0 x1 x2 x3 (k0_pay1 (F := F)) := by
  unfold out0_A_4
  rw [View.read_writes_eq_canon _ _ _ (cover0_A_4 c i a1 h1 a2 h2 a3 h3 a4 h4 a5 h5 hc x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S4096x128) hz]

end Cert.KernelIdeal.Pieces
end
-- ==== Proof.Payload.lean ====
/-
  The body's arithmetic at the ideal instance, read at the accumulator's one cell: the cell as loaded plus the sum,
  over the 128 lanes and then the 4096 rows of the block, of each element's contribution. (The body sums the
  rows first, giving one number per lane, then the lanes; a sum over one axis of a block is the sum over that
  axis's coordinates, and the two reshapes in between only add a unit axis.)
-/
import proofs.«141149_j8744553415074_2_alg».proof.Proof.Gen.KernelIdeal.Skeleton
import proofs.«141149_j8744553415074_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.Payload

open Cert.KernelIdeal Cert.KernelIdeal.Gen

/-- The zero cell the first point stores. -/
theorem pay1_apply (u v : Fin 1) : k0_pay1 (F := Ideal) (ix2 u v) = Cert.KlSpec.zero := rfl

/-- The cell the body leaves: the cell it loaded plus the block's contributions, lanes outermost. -/
theorem pay2_apply (x0 x1 x2 x3 : FVec Ideal S4096x128 .f32) (acc : FVec Ideal S1x1 .f32) (u v : Fin 1) :
    k0_pay2 (F := Ideal) x0 x1 x2 x3 acc (ix2 u v)
      = acc (ix2 u v) + ∑ l : Fin 128, ∑ r : Fin 4096,
          Cert.KlSpec.term (x0 (ix2 r l)) (x1 (ix2 r l)) (x2 (ix2 r l)) (x3 (ix2 r l)) := by
  unfold k0_pay2
  simp only [shapeCast_self]
  rw [addf_apply]
  refine congrArg (acc (ix2 u v) + ·) ?_
  -- the last reshape adds a unit axis; the lane sum is a sum over the 128 lane coordinates
  refine (shapeCast_a_1a_apply _ _ u v).trans ?_
  refine (Ideal.multiReduction_add_single _ 0x00000000#32 reduces_S1x128_S1 (.inl rfl) rfl (ix1 v)).trans ?_
  refine Finset.sum_congr rfl fun l _ => ?_
  have hl : reduces_S1x128_S1.lift (ix1 v) l = ix2 v (l : Fin 128) := by
    funext a
    match a with
    | ⟨0, _⟩ => rfl
    | ⟨1, _⟩ => rfl
  rw [hl]
  -- the first reshape adds a unit axis; the row sum is a sum over the 4096 row coordinates
  refine (shapeCast_a_1a_apply _ _ v (l : Fin 128)).trans ?_
  refine (Ideal.multiReduction_add_single _ 0x00000000#32 reduces_S4096x128_S128 (.inl rfl) rfl (ix1 (l : Fin 128))).trans ?_
  refine Finset.sum_congr rfl fun r _ => ?_
  have hr : reduces_S4096x128_S128.lift (ix1 (l : Fin 128)) r = ix2 (r : Fin 4096) (l : Fin 128) := by
    funext a
    match a with
    | ⟨0, _⟩ => rfl
    | ⟨1, _⟩ => rfl
  rw [hr]
  rfl

end Cert.KernelIdeal.Payload
end
-- ==== Proof.BlockRead.lean ====
/-
  What the kernel's four input windows hold at a grid point, in terms of the program's arguments. Each argument, a
  vector of 2^24 numbers, enters the region viewed row-major as 131072 rows of 128 lanes; window k's block at grid
  point t is rows 4096·t … 4096·t + 4095 of that view. So row r, lane l of the block is the argument at the flat
  position (4096·t + r)·128 + l.
-/
import proofs.«141149_j8744553415074_2_alg».proof.Proof.Gen.KernelIdeal.Frame
import proofs.«141149_j8744553415074_2_alg».proof.Proof.Spec
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.BlockRead

open Cert.KernelIdeal Cert.KernelIdeal.Gen

variable {F : FTy → Type} [FloatOps F]
variable (m : (ℓ : Loc nD τ sig) → Buf (Elt F) ℓ)

/-- Input window 0's block index at point `t` is (t, 0): block `t` is rows 4096·t … 4096·t + 4095, all 128 lanes. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- When the region is entered, its operand 0 is argument 0 viewed as 131072 rows of 128 lanes. -/
theorem V0_reshape (c : Dev nD) :
    (V m c main_v0 : S131072x128.Idx → F .f32)
      = shapeCast S131072x128 (m ((c : Thread nD τ).loc main_arg0)) shapeCasts_S16777216_S131072x128 := by
  show StableHlo.after hostOps0 (fun b => m (c, b)) (Proc.devRef .tc main_v0) = _
  after_results
  rfl

/-- Row `r`, lane `l` of block `t` of operand 0 is argument 0 at the flat position (4096·t + r)·128 + l:
    the block sits at row offset 4096·t, and the row-major view keeps positions. -/
theorem iblk0_apply (c : Dev nD) (t : Fin cfg0.N) (r : Fin 4096) (l : Fin 128) :
    (iblk m c 0 t : S4096x128.Idx → F .f32) (ix2 r l) = m ((c : Thread nD τ).loc main_arg0) (Cert.KlSpec.flat t.val r l) := by
  have hN : t.val < 32 := lt_of_lt_of_eq t.isLt (show cfg0.N = 32 from N_0)
  have e := V0_reshape m c
  unfold iblk
  rw [View.read_apply]
  show (V m c main_v0 : S131072x128.Idx → F .f32) (((cfg0.win 0).blk t).view.emb (ix2 r l)) = _
  rw [e]
  refine shapeCast_apply _ _ _ (Cert.KlSpec.flat t.val r l) ?_
  rw [Shape.rowMajor_val_one, Shape.rowMajor_val_two]
  show ((t.val % 32) * 4096 + r.val) * 128 + l.val
    = (win0_0.index t 0 * 4096 + 1 * r.val) * 128 + (win0_0.index t 1 * 128 + 1 * l.val)
  rw [(idx0 t).1, (idx0 t).2]
  omega

/-- Input window 1's block index at point `t` is (t, 0): block `t` is rows 4096·t … 4096·t + 4095, all 128 lanes. -/
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- When the region is entered, its operand 1 is argument 1 viewed as 131072 rows of 128 lanes. -/
theorem V1_reshape (c : Dev nD) :
    (V m c main_v1 : S131072x128.Idx → F .f32)
      = shapeCast S131072x128 (m ((c : Thread nD τ).loc main_arg1)) shapeCasts_S16777216_S131072x128 := by
  show StableHlo.after hostOps0 (fun b => m (c, b)) (Proc.devRef .tc main_v1) = _
  after_results
  rfl

/-- Row `r`, lane `l` of block `t` of operand 1 is argument 1 at the flat position (4096·t + r)·128 + l:
    the block sits at row offset 4096·t, and the row-major view keeps positions. -/
theorem iblk1_apply (c : Dev nD) (t : Fin cfg0.N) (r : Fin 4096) (l : Fin 128) :
    (iblk m c 1 t : S4096x128.Idx → F .f32) (ix2 r l) = m ((c : Thread nD τ).loc main_arg1) (Cert.KlSpec.flat t.val r l) := by
  have hN : t.val < 32 := lt_of_lt_of_eq t.isLt (show cfg0.N = 32 from N_0)
  have e := V1_reshape m c
  unfold iblk
  rw [View.read_apply]
  show (V m c main_v1 : S131072x128.Idx → F .f32) (((cfg0.win 1).blk t).view.emb (ix2 r l)) = _
  rw [e]
  refine shapeCast_apply _ _ _ (Cert.KlSpec.flat t.val r l) ?_
  rw [Shape.rowMajor_val_one, Shape.rowMajor_val_two]
  show ((t.val % 32) * 4096 + r.val) * 128 + l.val
    = (win0_1.index t 0 * 4096 + 1 * r.val) * 128 + (win0_1.index t 1 * 128 + 1 * l.val)
  rw [(idx1 t).1, (idx1 t).2]
  omega

/-- Input window 2's block index at point `t` is (t, 0): block `t` is rows 4096·t … 4096·t + 4095, all 128 lanes. -/
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- When the region is entered, its operand 2 is argument 2 viewed as 131072 rows of 128 lanes. -/
theorem V2_reshape (c : Dev nD) :
    (V m c main_v2 : S131072x128.Idx → F .f32)
      = shapeCast S131072x128 (m ((c : Thread nD τ).loc main_arg2)) shapeCasts_S16777216_S131072x128 := by
  show StableHlo.after hostOps0 (fun b => m (c, b)) (Proc.devRef .tc main_v2) = _
  after_results
  rfl

/-- Row `r`, lane `l` of block `t` of operand 2 is argument 2 at the flat position (4096·t + r)·128 + l:
    the block sits at row offset 4096·t, and the row-major view keeps positions. -/
theorem iblk2_apply (c : Dev nD) (t : Fin cfg0.N) (r : Fin 4096) (l : Fin 128) :
    (iblk m c 2 t : S4096x128.Idx → F .f32) (ix2 r l) = m ((c : Thread nD τ).loc main_arg2) (Cert.KlSpec.flat t.val r l) := by
  have hN : t.val < 32 := lt_of_lt_of_eq t.isLt (show cfg0.N = 32 from N_0)
  have e := V2_reshape m c
  unfold iblk
  rw [View.read_apply]
  show (V m c main_v2 : S131072x128.Idx → F .f32) (((cfg0.win 2).blk t).view.emb (ix2 r l)) = _
  rw [e]
  refine shapeCast_apply _ _ _ (Cert.KlSpec.flat t.val r l) ?_
  rw [Shape.rowMajor_val_one, Shape.rowMajor_val_two]
  show ((t.val % 32) * 4096 + r.val) * 128 + l.val
    = (win0_2.index t 0 * 4096 + 1 * r.val) * 128 + (win0_2.index t 1 * 128 + 1 * l.val)
  rw [(idx2 t).1, (idx2 t).2]
  omega

/-- Input window 3's block index at point `t` is (t, 0): block `t` is rows 4096·t … 4096·t + 4095, all 128 lanes. -/
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- When the region is entered, its operand 3 is argument 3 viewed as 131072 rows of 128 lanes. -/
theorem V3_reshape (c : Dev nD) :
    (V m c main_v3 : S131072x128.Idx → F .f32)
      = shapeCast S131072x128 (m ((c : Thread nD τ).loc main_arg3)) shapeCasts_S16777216_S131072x128 := by
  show StableHlo.after hostOps0 (fun b => m (c, b)) (Proc.devRef .tc main_v3) = _
  after_results
  rfl

/-- Row `r`, lane `l` of block `t` of operand 3 is argument 3 at the flat position (4096·t + r)·128 + l:
    the block sits at row offset 4096·t, and the row-major view keeps positions. -/
theorem iblk3_apply (c : Dev nD) (t : Fin cfg0.N) (r : Fin 4096) (l : Fin 128) :
    (iblk m c 3 t : S4096x128.Idx → F .f32) (ix2 r l) = m ((c : Thread nD τ).loc main_arg3) (Cert.KlSpec.flat t.val r l) := by
  have hN : t.val < 32 := lt_of_lt_of_eq t.isLt (show cfg0.N = 32 from N_0)
  have e := V3_reshape m c
  unfold iblk
  rw [View.read_apply]
  show (V m c main_v3 : S131072x128.Idx → F .f32) (((cfg0.win 3).blk t).view.emb (ix2 r l)) = _
  rw [e]
  refine shapeCast_apply _ _ _ (Cert.KlSpec.flat t.val r l) ?_
  rw [Shape.rowMajor_val_one, Shape.rowMajor_val_two]
  show ((t.val % 32) * 4096 + r.val) * 128 + l.val
    = (win0_3.index t 0 * 4096 + 1 * r.val) * 128 + (win0_3.index t 1 * 128 + 1 * l.val)
  rw [(idx3 t).1, (idx3 t).2]
  omega

end Cert.KernelIdeal.BlockRead
end
-- ==== Proof.Accumulate.lean ====
/-
  The accumulator cell, point by point. At the first grid point the body leaves zero plus block 0's sum; at every
  later point it adds that point's block sum to what the point before left. By induction on the point the cell holds,
  after point n, zero plus the sums of blocks 0 … n — each block read through the windows as the arguments at
  the block's flat positions.
-/
import proofs.«141149_j8744553415074_2_alg».proof.Proof.Pieces
import proofs.«141149_j8744553415074_2_alg».proof.Proof.Payload
import proofs.«141149_j8744553415074_2_alg».proof.Proof.BlockRead

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ)

/-- The running total after grid point `n`: zero plus the sums of blocks 0 … n of the four arguments. -/
def total (c : Dev nD) (n : ℕ) : EReal :=
  Cert.KlSpec.zero + ∑ t ∈ Finset.range (n + 1),
    Cert.KlSpec.blockSum (m ((c : Thread nD τ).loc main_arg0)) (m ((c : Thread nD τ).loc main_arg1))
      (m ((c : Thread nD τ).loc main_arg2)) (m ((c : Thread nD τ).loc main_arg3)) t

/-- The contributions of block `t`, read through the four windows, sum to the block sum of the arguments. -/
theorem block_eq (c : Dev nD) (t : Fin cfg0.N) :
    (∑ l : Fin 128, ∑ r : Fin 4096,
        Cert.KlSpec.term ((iblk m c 0 t : S4096x128.Idx → Ideal .f32) (ix2 r l)) ((iblk m c 1 t : S4096x128.Idx → Ideal .f32) (ix2 r l))
          ((iblk m c 2 t : S4096x128.Idx → Ideal .f32) (ix2 r l)) ((iblk m c 3 t : S4096x128.Idx → Ideal .f32) (ix2 r l)))
      = Cert.KlSpec.blockSum (m ((c : Thread nD τ).loc main_arg0)) (m ((c : Thread nD τ).loc main_arg1))
          (m ((c : Thread nD τ).loc main_arg2)) (m ((c : Thread nD τ).loc main_arg3)) t.val := by
  unfold Cert.KlSpec.blockSum
  refine Finset.sum_congr rfl fun l _ => Finset.sum_congr rfl fun r _ => ?_
  rw [BlockRead.iblk0_apply, BlockRead.iblk1_apply, BlockRead.iblk2_apply, BlockRead.iblk3_apply]

/-- What the accumulator cell holds after grid point `n` is the running total. -/
theorem outsAt_eq (c : Dev nD) : ∀ (n : ℕ) (h : n < cfg0.N), outsAt0 m c n h = fun _ => total m c n
  | 0, h => by
    funext j
    obtain ⟨u, v, rfl⟩ : ∃ (u v : Fin 1), j = ix2 u v := ⟨j 0, j 1, eq_ix2 j⟩
    rw [outsAt0_A m c ⟨0, h⟩ rfl, Pieces.out_A, Payload.pay2_apply, Payload.pay1_apply, block_eq]
    unfold total
    rw [Finset.sum_range_one]
  | n + 1, h => by
    have hN : cfg0.N = 32 := N_0
    have hB : ¬(⟨n + 1, h⟩ : Fin cfg0.N).val % 32 = 0 := by dsimp only; omega
    funext j
    obtain ⟨u, v, rfl⟩ : ∃ (u v : Fin 1), j = ix2 u v := ⟨j 0, j 1, eq_ix2 j⟩
    rw [outsAt0_B m c ⟨n + 1, h⟩ hB, Pieces.out_B, Payload.pay2_apply, block_eq]
    show outsAt0 m c n _ (ix2 u v) + _ = _
    rw [outsAt_eq c n]
    unfold total
    rw [Finset.sum_range_succ _ (n + 1), add_assoc]

end Cert.KernelIdeal.Acc
end
-- ==== Proof.Final.lean ====
/-
  From the accumulator cell to the program's result. The accumulator's one-cell array is written back once, after
  the last grid point, with the running total of all 32 blocks; the host then views that cell as a scalar and
  subtracts n/2 = 2^23. So the result is the blocked form of the KL divergence of the four arguments.
-/
import proofs.«141149_j8744553415074_2_alg».proof.Proof.Accumulate
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen

variable (m : (ℓ : Loc nD τ sig) → Buf (Elt Ideal) ℓ) (ρ : Dev nD → PrngReg)

/-- The last grid point. -/
abbrev t31 : Fin cfg0.N := ⟨31, lt_of_lt_of_eq (by decide) N_0.symm⟩

/-- The one write-back, at the last point, writes the running total of all 32 blocks: what the body left there is the
    constant function at that total, and so is the constant array read through the point's one-cell block. -/
theorem flushed_eq (c : Dev nD) (t : Fin cfg0.N) (hf : (cfg0.win 4).flush t = true) :
    (dats m 0 c).flushed 4 t
      = ((cfg0.win 4).blk t).view.read (Elt Ideal) (fun _ => Cert.KernelIdeal.Acc.total m c 31) := by
  have hN : cfg0.N = 32 := N_0
  have h31 : t.val = 31 := by have := (flush0_4 t).mp hf; have := t.isLt; omega
  obtain rfl : t = t31 := Fin.ext h31
  show (cfg0.win 4).cut (grid0.coords t31) ((dats m 0 c).after 4 t31) = _
  rw [after0_4, Cert.KernelIdeal.Acc.outsAt_eq]
  funext j
  rfl

/-- The accumulator's array after the run: its one cell holds the running total after the last point. -/
theorem final4 (c : Dev nD) : (dats m 0 c).arrAt 4 cfg0.N = fun _ => Cert.KernelIdeal.Acc.total m c 31 :=
  (dats m 0 c).arrAt_eq_of_cover 4 (fun _ => Cert.KernelIdeal.Acc.total m c 31) (flushed_eq m c) fun i =>
    -- the one index of the [1,1] array lies in block (0,0), the block of the last point
    ⟨t31, (flush0_4 t31).mpr rfl, by
      show i ∈ ((View.whole main_v4).slice (win0_4.rect t31)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index t31 0 * win0_4.size 0 ≤ (i 0 : Nat)
          ∧ (i 0 : Nat) < win0_4.index t31 0 * win0_4.size 0 + win0_4.xsize (grid0.coords t31) 0
        rw [show win0_4.index t31 0 * win0_4.size 0 = 0 from by decide +kernel,
          show win0_4.xsize (grid0.coords t31) 0 = 1 from by decide +kernel]
        omega
      | ⟨1, _⟩ =>
        show win0_4.index t31 1 * win0_4.size 1 ≤ (i 1 : Nat)
          ∧ (i 1 : Nat) < win0_4.index t31 1 * win0_4.size 1 + win0_4.xsize (grid0.coords t31) 1
        rw [show win0_4.index t31 1 * win0_4.size 1 = 0 from by decide +kernel,
          show win0_4.xsize (grid0.coords t31) 1 = 1 from by decide +kernel]
        omega⟩

/-- The program's result after the host operations that follow the region: the blocked form of the arguments. -/
theorem tail_eq (c : Dev nD) :
    Pipeline.afterTail₀ cfgs (dats m) 0 (V0 m) [hostOps1] c main_v6
      = fun _ => Cert.KlSpec.blocked (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v6) = _
  after_results
  -- the accumulator's array, as the region leaves it, holds the total of the 32 blocks in its one cell
  have hw : Pipeline.withArrays (cfgs 0).spec c (V0 m c) (fun w => (dats m 0 c).arrAt w (cfgs 0).N)
      (Proc.devRef .tc main_v4) = fun _ => Cert.KernelIdeal.Acc.total m c 31 :=
    (Pipeline.withArrays_arr spec0 launch0.win.arr_inj c _ _ 4).trans (final4 m c)
  rw [hw]
  funext i
  -- viewing a constant cell as a scalar gives that constant; the subtraction of n/2 is the blocked form's last step
  show Cert.KernelIdeal.Acc.total m c 31 - Ideal.ofBits .f32 0x4B000000#32 = _
  rfl

/-- The run, read: the result at the blocked form of the arguments, the arguments unchanged. -/
theorem run : θ_run defs (onTc (τ := τ) (main (F := Ideal))) ⟨m, fun _ => 0, ρ⟩ (fun r => ∀ c : Dev nD,
      r.2.mem ((c.tc : Thread nD τ).loc main_v6)
        = (fun _ => Cert.KlSpec.blocked (m ((c : Thread nD τ).loc main_arg0)) (m ((c : Thread nD τ).loc main_arg1))
            (m ((c : Thread nD τ).loc main_arg2)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final
end
-- ==== Proof.lean ====
/-
  The KL divergence between two diagonal Gaussians, computed two ways, is one extended real on finite data.

  The arguments are four vectors of n = 2^24 numbers: means a0, a2 and log-variances a1, a3. One element contributes
      term = (1/2·a1 − 1/2·a3 + 1/2·exp(a3 − a1)) + 1/2·((a0 − a2)²·exp(0 − a1)).
  The kernel views each vector as 131072 rows of 128 lanes and walks 32 blocks of 4096 rows: at each block it sums the
  contributions over the rows, then over the lanes, and adds the block's sum into a one-cell accumulator that is reset at
  the first block and written back after the last; the host then subtracts n/2 = 2^23. That is the BLOCKED form.
  The reference takes four whole-vector sums: 1/2·(Σ a1 − Σ a3) + 1/2·((Σ exp(a3 − a1) + Σ (a0 − a2)²·exp(−a1)) − n).
  That is the SPLIT form.

  The modules, in order of dependence:
    Spec        the two forms as functions of four vectors of extended reals;
    SpecLaw     on real data they agree: every quantity is then the image of a real, the triple sum over blocks,
                lanes and rows is one sum over the 2^24 flat positions (a bijection), a sum of differences and
                products by 1/2 splits (this is where finiteness is used), and 1/2·(X − n) = 1/2·X − n/2;
    Finite      the precondition says every entry of every argument is a real;
    Pieces      one run of the body leaves in the accumulator cell its last store's payload;
    Payload     that payload is the cell as loaded plus the block's sum, lanes outermost;
    BlockRead   an element of a window's block is the argument at its flat position;
    Accumulate  by induction on the grid point, the cell holds zero plus the sums of the blocks so far;
    Final       the cell is written back once, with the total; the host's reshape and subtraction give the blocked form;
    RefValue    the reference's operations, read one at a time, give the split form.
  Below: the three frames, the (empty) idealization ledger, and the equality of the two results.
-/
import proofs.«141149_j8744553415074_2_alg».proof.Defs
import proofs.«141149_j8744553415074_2_alg».proof.Proof.Gen.Kernel
import proofs.«141149_j8744553415074_2_alg».proof.Proof.Gen.Kernel.Frame
import proofs.«141149_j8744553415074_2_alg».proof.Proof.Gen.KernelIdeal
import proofs.«141149_j8744553415074_2_alg».proof.Proof.Gen.KernelIdeal.Frame
import proofs.«141149_j8744553415074_2_alg».proof.Proof.Gen.ReferenceIdeal
import proofs.«141149_j8744553415074_2_alg».proof.Proof.Gen.Pre_finite_inputs
import proofs.«141149_j8744553415074_2_alg».proof.Proof.Gen.ReferenceIdeal.Run
import proofs.«141149_j8744553415074_2_alg».proof.Proof.Gen.ReferenceIdeal.Read
import proofs.«141149_j8744553415074_2_alg».proof.Proof.RefValue
import proofs.«141149_j8744553415074_2_alg».proof.Proof.SpecLaw
import proofs.«141149_j8744553415074_2_alg».proof.Proof.Finite
import proofs.«141149_j8744553415074_2_alg».proof.Proof.Final
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- On finite arguments the kernel's result, the blocked form, and the reference's, the split form, are one extended
    real: the kernel's run ends at the blocked form of its arguments, the reference's at the split form of arguments
    that agree with them, every entry of the arguments is a real by the precondition, and on reals the two forms agree. -/
theorem algebraic : Cert.algebraic_KernelIdeal_ReferenceIdeal := by
  intro m ρ m' ρ' hpre hagree
  refine ⟨fun c => fun _ => Cert.KlSpec.blocked (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v16_eq]
  funext i
  rw [Cert.ReferenceIdeal.RefValue.val_eq_split]
  obtain ⟨f0, f1, f2, f3⟩ := Cert.Finite.real_of_pre _ _ _ _ (hpre c)
  exact (Cert.KlSpec.blocked_eq_split _ _ _ _ f0 f1 f2 f3).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
